-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x16 : Shape := ⟨2, ![50000, 16]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x128 .f32) (main_arg1 : FVec F S50000x128 .f32) (main_arg2 : IVec S50000x16 32) (main_arg3 : FVec F S128x64 .f32) (main_arg4 : FVec F S64 .f32) (main_arg5 : FVec F S128x64 .f32) (main_arg6 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S50000x128 : Shape := ⟨2, ![50000, 128]⟩
abbrev S50000x16 : Shape := ⟨2, ![50000, 16]⟩
abbrev S128x64 : Shape := ⟨2, ![128, 64]⟩
abbrev S64 : Shape := ⟨1, ![64]⟩
abbrev S1x64 : Shape := ⟨2, ![1, 64]⟩
abbrev S50000x64 : Shape := ⟨2, ![50000, 64]⟩
abbrev S10000x128 : Shape := ⟨2, ![10000, 128]⟩
abbrev S10000x64 : Shape := ⟨2, ![10000, 64]⟩
abbrev S_ : Shape := ⟨0, ![]⟩
abbrev S50000x16x1 : Shape := ⟨3, ![50000, 16, 1]⟩
abbrev S50000x16x64 : Shape := ⟨3, ![50000, 16, 64]⟩
abbrev S5000x128 : Shape := ⟨2, ![5000, 128]⟩
abbrev S5000x64 : Shape := ⟨2, ![5000, 64]⟩

abbrev nBuf : Space → Nat
  | .hbm => 24
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x16, .i32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S1x64, .f32⟩
  | .hbm, ⟨8, _⟩ => ⟨S50000x64, .f32⟩
  | .hbm, ⟨9, _⟩ => ⟨S50000x64, .bf16⟩
  | .hbm, ⟨10, _⟩ => ⟨S_, .i32⟩
  | .hbm, ⟨11, _⟩ => ⟨S50000x16, .i32⟩
  | .hbm, ⟨12, _⟩ => ⟨S50000x16, .i1⟩
  | .hbm, ⟨13, _⟩ => ⟨S_, .i32⟩
  | .hbm, ⟨14, _⟩ => ⟨S50000x16, .i32⟩
  | .hbm, ⟨15, _⟩ => ⟨S50000x16, .i32⟩
  | .hbm, ⟨16, _⟩ => ⟨S50000x16, .i32⟩
  | .hbm, ⟨17, _⟩ => ⟨S50000x16x1, .i32⟩
  | .hbm, ⟨18, _⟩ => ⟨S50000x16x64, .bf16⟩
  | .hbm, ⟨19, _⟩ => ⟨S50000x16x64, .f32⟩
  | .hbm, ⟨20, _⟩ => ⟨S_, .f32⟩
  | .hbm, ⟨21, _⟩ => ⟨S50000x64, .f32⟩
  | .hbm, ⟨22, _⟩ => ⟨S1x64, .f32⟩
  | .hbm, ⟨23, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .bf16⟩
  | .local _ .vmem, ⟨7, _⟩ => ⟨S10000x64, .bf16⟩
  | .local _ .vmem, ⟨8, _⟩ => ⟨S5000x128, .f32⟩
  | .local _ .vmem, ⟨9, _⟩ => ⟨S5000x128, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  reducesTo_S50000x16x64_S50000x64_d1 : S50000x16x64.ReducesTo [1] S50000x64
  h_S_ : 0 < S_.numel
  inb_S5000x128_S5000x128_0_0 : ∀ a, (![0, 0] : Fin 2 → Nat) a + S5000x128.size a ≤ S5000x128.size a
  h_S5000x128 : 0 < S5000x128.numel
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  dot_S10000x128_S128x64_S10000x64_1_0_0_1_n_n_wf : DotDims.WF S10000x128 S128x64 S10000x64 [1] [0] [0] [1] [] []
  gather_S50000x64_S50000x16x1_S50000x16x64_2_0_n_n_0_2_164_wf : GatherDims.WF S50000x64 S50000x16x1 S50000x16x64 [2] [0] [] [0] [] 2 ![1, 64]
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S50000x64.size a
  hwx0_4 : ∀ i : grid0.Coords, EltTy.bits .bf16 = 32 ∨ (Rect.block (s := S50000x64) S10000x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S50000x16x1_S50000x16x64_2_0_n_n_0_2_164 : GatherDims S50000x64 S50000x16x1 S50000x16x64 where
  offsetDims := [2]
  collapsedSliceDims := [0]
  operandBatchingDims := []
  startIndicesBatchingDims := []
  startIndexMap := [0]
  indexVectorDim := 2
  sliceSizes := ![1, 64]
  wf := gather_S50000x64_S50000x16x1_S50000x16x64_2_0_n_n_0_2_164_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S10000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x16 : Shape := ⟨2, ![50000, 16]⟩
abbrev S128x64 : Shape := ⟨2, ![128, 64]⟩
abbrev S64 : Shape := ⟨1, ![64]⟩
abbrev S50000x64 : Shape := ⟨2, ![50000, 64]⟩
abbrev S1x64 : Shape := ⟨2, ![1, 64]⟩
abbrev S_ : Shape := ⟨0, ![]⟩
abbrev S50000x16x1 : Shape := ⟨3, ![50000, 16, 1]⟩
abbrev S50000x16x64 : Shape := ⟨3, ![50000, 16, 64]⟩

abbrev nBuf : Space → Nat
  | .hbm => 37
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x16, .i32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S50000x64, .f32⟩
  | .hbm, ⟨8, _⟩ => ⟨S1x64, .f32⟩
  | .hbm, ⟨9, _⟩ => ⟨S50000x64, .f32⟩
  | .hbm, ⟨10, _⟩ => ⟨S50000x64, .f32⟩
  | .hbm, ⟨11, _⟩ => ⟨S_, .i32⟩
  | .hbm, ⟨12, _⟩ => ⟨S50000x16, .i32⟩
  | .hbm, ⟨13, _⟩ => ⟨S50000x16, .i1⟩
  | .hbm, ⟨14, _⟩ => ⟨S_, .i32⟩
  | .hbm, ⟨15, _⟩ => ⟨S50000x16, .i32⟩
  | .hbm, ⟨16, _⟩ => ⟨S50000x16, .i32⟩
  | .hbm, ⟨17, _⟩ => ⟨S50000x16, .i32⟩
  | .hbm, ⟨18, _⟩ => ⟨S50000x16x1, .i32⟩
  | .hbm, ⟨19, _⟩ => ⟨S50000x16x64, .f32⟩
  | .hbm, ⟨20, _⟩ => ⟨S_, .f32⟩
  | .hbm, ⟨21, _⟩ => ⟨S50000x64, .f32⟩
  | .hbm, ⟨22, _⟩ => ⟨S_, .f32⟩
  | .hbm, ⟨23, _⟩ => ⟨S50000x64, .f32⟩
  | .hbm, ⟨24, _⟩ => ⟨S50000x64, .f32⟩
  | .hbm, ⟨25, _⟩ => ⟨S50000x64, .f32⟩
  | .hbm, ⟨26, _⟩ => ⟨S_, .f32⟩
  | .hbm, ⟨27, _⟩ => ⟨S50000x64, .f32⟩
  | .hbm, ⟨28, _⟩ => ⟨S50000x64, .f32⟩
  | .hbm, ⟨29, _⟩ => ⟨S50000x64, .f32⟩
  | .hbm, ⟨30, _⟩ => ⟨S1x64, .f32⟩
  | .hbm, ⟨31, _⟩ => ⟨S50000x64, .f32⟩
  | .hbm, ⟨32, _⟩ => ⟨S50000x64, .f32⟩
  | .hbm, ⟨33, _⟩ => ⟨S50000x64, .f32⟩
  | .hbm, ⟨34, _⟩ => ⟨S_, .f32⟩
  | .hbm, ⟨35, _⟩ => ⟨S50000x64, .f32⟩
  | .hbm, ⟨36, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  reducesTo_S50000x16x64_S50000x64_d1 : S50000x16x64.ReducesTo [1] S50000x64
  h_S_ : 0 < S_.numel
  bcast_S_S50000x64 : S_.BroadcastsInDim S50000x64 (![] : Fin 0 → Fin S50000x64.rank)
  dot_S50000x128_S128x64_S50000x64_1_0_0_1_n_n_wf : DotDims.WF S50000x128 S128x64 S50000x64 [1] [0] [0] [1] [] []
  gather_S50000x64_S50000x16x1_S50000x16x64_2_0_n_n_0_2_164_wf : GatherDims.WF S50000x64 S50000x16x1 S50000x16x64 [2] [0] [] [0] [] 2 ![1, 64]

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S50000x16x1_S50000x16x64_2_0_n_n_0_2_164 : GatherDims S50000x64 S50000x16x1 S50000x16x64 where
  offsetDims := [2]
  collapsedSliceDims := [0]
  operandBatchingDims := []
  startIndicesBatchingDims := []
  startIndexMap := [0]
  indexVectorDim := 2
  sliceSizes := ![1, 64]
  wf := gather_S50000x64_S50000x16x1_S50000x16x64_2_0_n_n_0_2_164_wf

class Facts : Prop extends Facts₀ where

variable [Facts]
-- ==== Proof.KernelRun.lean ====
/-
  The idealized kernel's run with its RESULT named.

  The program is two kernel regions among two stretches of host operations.  Every weakly fair execution terminates,
  faults nowhere, leaves the seven argument arrays as launched, and leaves the result array at what the second
  region's write-backs leave of it: the array folded over the second region's grid points, started from the buffer
  contents at the second region's entry.  The other modules read that array entry by entry.
-/
import proofs.«177950_j87488483819569_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: the result array ends at the second region's folded write-backs, the arguments as
    launched.  The segments, the thread states between them and the launch are the frame's; only the last reading of
    the final state asks for one buffer more, the result's. -/
theorem run_result : θ_run defs (onTc (τ := τ) (main (F := F))) ⟨m, fun _ => 0, ρ⟩ (fun r => ∀ c : Dev nD,
      r.2.mem ((c.tc : Thread nD τ).loc main_v12) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v12 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.RunValue

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.LibSageLayer.lean ====
/-
  One mean-aggregation graph layer and the final projection, as functions of whole arrays, entry by entry.

  A layer takes the aggregated neighbour means `mean` and the node features `h` (both `[n, k]`), two weight matrices
  `[k, b]` and a bias row, and returns `max (mean·W_l + h·W_r + bias, 0)` — an `[n, b]` array.  The kernel adds the two
  matrix products first and the bias last; the reference adds the bias to the first product and the second product
  last.  Addition of extended reals is commutative and associative (also at the infinities), so the two orders agree:
  `add_right_comm`.  No finiteness is needed anywhere.
-/
import Idealize.ShloMosaic.Lib.ValueIdx
import Idealize.ShloMosaic.Lib.ValueLayout
import Idealize.ShloMosaic.Lib.Pipeline.Value
import Idealize.ShloMosaic.PureOps.Ideal.Laws
import proofs.«177950_j87488483819569_2_alg».proof.Proof.LibPlainDot

noncomputable section

namespace Cert.Sage

open Idealize.ShloMosaic Idealize.ShloMosaic.ValueIdx

variable {n k b : ℕ}

/-- The layer at entry `(r, q)`: `max ((Σ_j mean(r,j)·W_l(j,q) + Σ_j h(r,j)·W_r(j,q)) + bias(q), 0)`. -/
def layer (mean h : FVec Ideal ⟨2, ![n, k]⟩ .f32) (wl wr : FVec Ideal ⟨2, ![k, b]⟩ .f32) (bias : Fin b → Ideal .f32) :
    FVec Ideal ⟨2, ![n, b]⟩ .f32 := fun i =>
  max ((∑ j : Fin k, mean (ix2 (i 0) j) * wl (ix2 j (i 1)) + ∑ j : Fin k, h (ix2 (i 0) j) * wr (ix2 j (i 1))) + bias (i 1))
    (Ideal.ofBits .f32 0x00000000#32)

/-- The projection at entry `(r, q)`: `Σ_j p(r,j)·W(j,q) + bias(q)`. -/
def proj (p : FVec Ideal ⟨2, ![n, k]⟩ .f32) (w : FVec Ideal ⟨2, ![k, b]⟩ .f32) (bias : Fin b → Ideal .f32) :
    FVec Ideal ⟨2, ![n, b]⟩ .f32 := fun i =>
  (∑ j : Fin k, p (ix2 (i 0) j) * w (ix2 j (i 1))) + bias (i 1)

section
variable (D : DotDims ⟨2, ![n, k]⟩ ⟨2, ![k, b]⟩ ⟨2, ![n, b]⟩)
  (hr : D.contr.rank = 1) (hs : D.contr.size ⟨0, by omega⟩ = k)
  (hl0 : ∀ i q, (D.lhsIdx i q 0).val = (i 0).val)
  (hl1 : ∀ i q, (D.lhsIdx i q 1).val = (q ⟨0, by omega⟩).val)
  (hr0 : ∀ i q, (D.rhsIdx i q 0).val = (q ⟨0, by omega⟩).val)
  (hr1 : ∀ i q, (D.rhsIdx i q 1).val = (i 1).val)
include hr hs hl0 hl1 hr0 hr1

/-- The kernel's arithmetic on one block of rows, at entry `(p, q)` of the block: both matrix units into zero
    accumulators are plain contraction sums (the narrowing of their operands is the identity on extended reals), then the
    broadcast bias row, then the maximum with zero. -/
theorem kernel_block_apply (x0 x1 : FVec Ideal ⟨2, ![n, k]⟩ .f32) (wl wr : FVec Ideal ⟨2, ![k, b]⟩ .f32)
    (b2 : FVec Ideal ⟨2, ![1, b]⟩ .f32) (hbf : FTy.bf16.bits < FTy.f32.bits)
    (hB : (⟨2, ![1, b]⟩ : Shape).Broadcasts ⟨2, ![n, b]⟩) (p : Fin n) (q : Fin b) :
    maximumf (addf (addf
        (matmul D none (truncf .bf16 x0 hbf) (truncf .bf16 wl hbf) (constant (F := Ideal) ⟨2, ![n, b]⟩ .f32 0x00000000#32))
        (matmul D none (truncf .bf16 x1 hbf) (truncf .bf16 wr hbf) (constant (F := Ideal) ⟨2, ![n, b]⟩ .f32 0x00000000#32)))
        (broadcastTo ⟨2, ![n, b]⟩ b2 hB))
      (broadcast ⟨2, ![n, b]⟩ (Scalar.ofBits (F := Ideal) .f32 0x00000000#32)) (ix2 p q)
    = max ((∑ j : Fin k, x0 (ix2 p j) * wl (ix2 j q) + ∑ j : Fin k, x1 (ix2 p j) * wr (ix2 j q)) + b2 (ix2 (0 : Fin 1) q))
        (Ideal.ofBits .f32 0x00000000#32) := by
  rw [maximumf_apply, addf_apply, addf_apply, broadcast_apply, broadcastTo_1b_ab_apply,
    PlainDot.matmul_zero_apply D none hr hs hl0 hl1 hr0 hr1, PlainDot.matmul_zero_apply D none hr hs hl0 hl1 hr0 hr1]
  rfl

/-- The kernel's projection arithmetic at entry `(p, q)`. -/
theorem kernel_proj_apply (x0 : FVec Ideal ⟨2, ![n, k]⟩ .f32) (w : FVec Ideal ⟨2, ![k, b]⟩ .f32)
    (b2 : FVec Ideal ⟨2, ![1, b]⟩ .f32) (hbf : FTy.bf16.bits < FTy.f32.bits)
    (hB : (⟨2, ![1, b]⟩ : Shape).Broadcasts ⟨2, ![n, b]⟩) (p : Fin n) (q : Fin b) :
    addf (matmul D none (truncf .bf16 x0 hbf) (truncf .bf16 w hbf) (constant (F := Ideal) ⟨2, ![n, b]⟩ .f32 0x00000000#32))
        (broadcastTo ⟨2, ![n, b]⟩ b2 hB) (ix2 p q)
    = (∑ j : Fin k, x0 (ix2 p j) * w (ix2 j q)) + b2 (ix2 (0 : Fin 1) q) := by
  rw [addf_apply, broadcastTo_1b_ab_apply, PlainDot.matmul_zero_apply D none hr hs hl0 hl1 hr0 hr1]
  rfl

/-- The reference's layer — `max ((mean·W_l + bias) + h·W_r, 0)` over the host's contractions, the bias and the zero
    given as already-broadcast arrays — is `layer`: the two orders of the three-term sum agree. -/
theorem host_layer_eq (mean h : FVec Ideal ⟨2, ![n, k]⟩ .f32) (wl wr : FVec Ideal ⟨2, ![k, b]⟩ .f32)
    (bias : Fin b → Ideal .f32) (bb z : FVec Ideal ⟨2, ![n, b]⟩ .f32)
    (hbb : ∀ p q, bb (ix2 p q) = bias q) (hz : ∀ i, z i = Ideal.ofBits .f32 0x00000000#32) :
    maximumf (addf (addf (Host.dotGeneral D none mean wl) bb) (Host.dotGeneral D none h wr)) z
      = layer mean h wl wr bias := by
  funext i
  obtain ⟨p, q, rfl⟩ : ∃ (p : Fin n) (q : Fin b), i = ix2 p q := ⟨i 0, i 1, eq_ix2 i⟩
  rw [maximumf_apply, addf_apply, addf_apply, hbb, hz,
    PlainDot.dotGeneral_apply D none hr hs hl0 hl1 hr0 hr1, PlainDot.dotGeneral_apply D none hr hs hl0 hl1 hr0 hr1]
  rw [add_right_comm]
  rfl

/-- The reference's projection is `proj`. -/
theorem host_proj_eq (p : FVec Ideal ⟨2, ![n, k]⟩ .f32) (w : FVec Ideal ⟨2, ![k, b]⟩ .f32)
    (bias : Fin b → Ideal .f32) (bb : FVec Ideal ⟨2, ![n, b]⟩ .f32) (hbb : ∀ p q, bb (ix2 p q) = bias q) :
    addf (Host.dotGeneral D none p w) bb = proj p w bias := by
  funext i
  obtain ⟨r, q, rfl⟩ : ∃ (r : Fin n) (q : Fin b), i = ix2 r q := ⟨i 0, i 1, eq_ix2 i⟩
  rw [addf_apply, hbb, PlainDot.dotGeneral_apply D none hr hs hl0 hl1 hr0 hr1]
  rfl

end

end Cert.Sage

end
-- ==== Proof.Spec.lean ====
/-
  The skip-merge graph layer as functions of whole arrays, entry by entry, on the extended reals.

  With `h = data·W_lin + b_lin` (a projection), `nb(p, q) = Σ_e h(idx(p, e), q)` the sum of the rows of `h` that row
  `p`'s sixteen neighbour indices name, and `skip = merge·W_tr + b_tr`, the layer returns
  `max ((16·h − nb)·(1/16) + skip, 0)`.  One side multiplies by the sixteenth, the other divides by sixteen: on the
  extended reals division by a non-zero real IS multiplication by its reciprocal, at the infinities too, so no
  finiteness is needed.
-/
import Idealize.ShloMosaic.Lib.ValueIdx
import Idealize.ShloMosaic.Lib.ValueLayout
import Idealize.ShloMosaic.Lib.Pipeline.Value
import Idealize.ShloMosaic.PureOps.Ideal.Laws
import proofs.«177950_j87488483819569_2_alg».proof.Proof.LibSageLayer

noncomputable section

namespace Cert.ConvSkip

open Idealize.ShloMosaic Idealize.ShloMosaic.ValueIdx

variable {n k b : ℕ}

/-- The word `0x41800000` is sixteen. -/
theorem word_sixteen : Ideal.ofBits .f32 0x41800000#32 = ((16 : ℝ) : EReal) := by
  simp [Ideal.ofBits, Ideal.ieee, -EReal.coe_mul]; norm_num

/-- The word `0x3D800000` is one sixteenth. -/
theorem word_sixteenth : Ideal.ofBits .f32 0x3D800000#32 = ((1 / 16 : ℝ) : EReal) := by
  simp [Ideal.ofBits, Ideal.ieee, -EReal.coe_mul]; norm_num

/-- Dividing by sixteen is multiplying by one sixteenth, for every extended real. -/
theorem div_sixteen (x : EReal) :
    Ideal.div x (Ideal.ofBits .f32 0x41800000#32) = x * Ideal.ofBits .f32 0x3D800000#32 := by
  rw [word_sixteen, word_sixteenth]
  exact Ideal.div_coe (by norm_num) x

/-- The combine step at entry `i`: `max ((16·h − nb)·(1/16) + skip, 0)`. -/
def combine (h nb skip : FVec Ideal ⟨2, ![n, b]⟩ .f32) : FVec Ideal ⟨2, ![n, b]⟩ .f32 := fun i =>
  max ((Ideal.ofBits .f32 0x41800000#32 * h i - nb i) * Ideal.ofBits .f32 0x3D800000#32 + skip i)
    (Ideal.ofBits .f32 0x00000000#32)

/-- The reference's spelling of the combine step — the quotient by sixteen, the sixteen and the zero given as
    already-broadcast arrays — is `combine`. -/
theorem host_combine_eq (h nb skip c16 d16 z : FVec Ideal ⟨2, ![n, b]⟩ .f32)
    (hc : ∀ i, c16 i = Ideal.ofBits .f32 0x41800000#32) (hd : ∀ i, d16 i = Ideal.ofBits .f32 0x41800000#32)
    (hz : ∀ i, z i = Ideal.ofBits .f32 0x00000000#32) :
    maximumf (addf (Host.divf (subf (mulf c16 h) nb) d16) skip) z = combine h nb skip := by
  funext i
  show max (Ideal.div (c16 i * h i - nb i) (d16 i) + skip i) (z i) = _
  rw [hc, hd, hz, div_sixteen]
  rfl

/-- The whole layer, the neighbour sum left as a function `nbf` of the hidden features: the two programs compute it by
    the same host operations, which are never opened. -/
def layer (nbf : FVec Ideal ⟨2, ![n, b]⟩ .f32 → FVec Ideal ⟨2, ![n, b]⟩ .f32)
    (data merge : FVec Ideal ⟨2, ![n, k]⟩ .f32) (wl : FVec Ideal ⟨2, ![k, b]⟩ .f32) (bl : Fin b → Ideal .f32)
    (wt : FVec Ideal ⟨2, ![k, b]⟩ .f32) (bt : Fin b → Ideal .f32) : FVec Ideal ⟨2, ![n, b]⟩ .f32 :=
  combine (Cert.Sage.proj data wl bl) (nbf (Cert.Sage.proj data wl bl)) (Cert.Sage.proj merge wt bt)

section
variable (D : DotDims ⟨2, ![n, k]⟩ ⟨2, ![k, b]⟩ ⟨2, ![n, b]⟩)
  (hr : D.contr.rank = 1) (hs : D.contr.size ⟨0, by omega⟩ = k)
  (hl0 : ∀ i q, (D.lhsIdx i q 0).val = (i 0).val)
  (hl1 : ∀ i q, (D.lhsIdx i q 1).val = (q ⟨0, by omega⟩).val)
  (hr0 : ∀ i q, (D.rhsIdx i q 0).val = (q ⟨0, by omega⟩).val)
  (hr1 : ∀ i q, (D.rhsIdx i q 1).val = (i 1).val)
include hr hs hl0 hl1 hr0 hr1

/-- The kernel's projection arithmetic on one block of rows, the bias row passed through a cast to its own shape, at
    entry `(p, q)` of the block. -/
theorem kernel_hidden_apply (x0 : FVec Ideal ⟨2, ![n, k]⟩ .f32) (w : FVec Ideal ⟨2, ![k, b]⟩ .f32)
    (b2 : FVec Ideal ⟨2, ![1, b]⟩ .f32) (hbf : FTy.bf16.bits < FTy.f32.bits)
    (hc1 : (⟨2, ![1, b]⟩ : Shape).ShapeCasts ⟨2, ![1, b]⟩)
    (hB : (⟨2, ![1, b]⟩ : Shape).Broadcasts ⟨2, ![n, b]⟩) (p : Fin n) (q : Fin b) :
    addf (matmul D none (truncf .bf16 x0 hbf) (truncf .bf16 w hbf) (constant (F := Ideal) ⟨2, ![n, b]⟩ .f32 0x00000000#32))
        (broadcastTo ⟨2, ![n, b]⟩ (shapeCast ⟨2, ![1, b]⟩ b2 hc1) hB) (ix2 p q)
    = (∑ j : Fin k, x0 (ix2 p j) * w (ix2 j q)) + b2 (ix2 (0 : Fin 1) q) := by
  rw [shapeCast_self]
  exact Cert.Sage.kernel_proj_apply D hr hs hl0 hl1 hr0 hr1 x0 w b2 hbf hB p q

/-- The kernel's combine arithmetic on one block of rows at entry `(p, q)` of the block: the skip projection of the
    `merge` block, and `(16·h − nb)·(1/16)` of the `h` and neighbour-sum blocks. -/
theorem kernel_combine_apply (x0 : FVec Ideal ⟨2, ![n, k]⟩ .f32) (w : FVec Ideal ⟨2, ![k, b]⟩ .f32)
    (b2 : FVec Ideal ⟨2, ![1, b]⟩ .f32) (hx nx : FVec Ideal ⟨2, ![n, b]⟩ .f32) (hbf : FTy.bf16.bits < FTy.f32.bits)
    (hc1 : (⟨2, ![1, b]⟩ : Shape).ShapeCasts ⟨2, ![1, b]⟩)
    (hc : (⟨2, ![n, b]⟩ : Shape).ShapeCasts ⟨2, ![n, b]⟩)
    (hB : (⟨2, ![1, b]⟩ : Shape).Broadcasts ⟨2, ![n, b]⟩) (p : Fin n) (q : Fin b) :
    maximumf (addf
        (mulf (subf (mulf (broadcast ⟨2, ![n, b]⟩ (Scalar.ofBits (F := Ideal) .f32 0x41800000#32)) (shapeCast ⟨2, ![n, b]⟩ hx hc))
            (shapeCast ⟨2, ![n, b]⟩ nx hc))
          (broadcast ⟨2, ![n, b]⟩ (Scalar.ofBits (F := Ideal) .f32 0x3D800000#32)))
        (addf (matmul D none (truncf .bf16 x0 hbf) (truncf .bf16 w hbf) (constant (F := Ideal) ⟨2, ![n, b]⟩ .f32 0x00000000#32))
          (broadcastTo ⟨2, ![n, b]⟩ (shapeCast ⟨2, ![1, b]⟩ b2 hc1) hB)))
      (broadcast ⟨2, ![n, b]⟩ (Scalar.ofBits (F := Ideal) .f32 0x00000000#32)) (ix2 p q)
    = max ((Ideal.ofBits .f32 0x41800000#32 * hx (ix2 p q) - nx (ix2 p q)) * Ideal.ofBits .f32 0x3D800000#32
        + ((∑ j : Fin k, x0 (ix2 p j) * w (ix2 j q)) + b2 (ix2 (0 : Fin 1) q)))
      (Ideal.ofBits .f32 0x00000000#32) := by
  rw [maximumf_apply, addf_apply, kernel_hidden_apply D hr hs hl0 hl1 hr0 hr1 x0 w b2 hbf hc1 hB p q,
    mulf_apply, subf_apply, mulf_apply, shapeCast_self, shapeCast_self]
  rfl

end

end Cert.ConvSkip

end
-- ==== Proof.Value0.lean ====
/-
  The first kernel region: the hidden features `h = data·W_lin + b_lin`.

  The region has five grid points; point `t` takes rows `10000·t … 10000·t + 9999` of `data`, the whole of `W_lin` and
  the bias row, and writes the same block of rows of both of its outputs (the second output is the first narrowed,
  which changes nothing on the extended reals).  Entry `(p, q)` of a block depends on row `p` of the `data` block only,
  so every block is the restriction of ONE whole-array function, the projection; the blocks cover the array; so both
  output arrays end at the projection of the arrays the region found.
-/
import proofs.«177950_j87488483819569_2_alg».proof.Proof.Gen.KernelIdeal.Frame
import proofs.«177950_j87488483819569_2_alg».proof.Proof.Spec
import Idealize.ShloMosaic.Lib.Pipeline.Value

set_option maxRecDepth 16384

noncomputable section

namespace Cert.KernelIdeal.Hidden

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The arrays the region reads, as it finds them: `data`, `W_lin` and the bias laid as a row. -/
abbrev aData (c : Dev nD) : S50000x128.Idx → EReal := V c main_arg0
abbrev aWeight (c : Dev nD) : S128x64.Idx → EReal := V c main_arg3
abbrev aBias (c : Dev nD) : S1x64.Idx → EReal := V c main_v0

/-! ## The contraction record of the block product: which operand coordinate each index names -/

theorem lhs0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-! ## The body's arithmetic at an entry of a block -/

/-- Entry `(p, q)` of the first output's block: row `p` of the `data` block against column `q` of `W_lin`, plus the
    bias row's entry `q`. -/
theorem pay1_apply (x0 : FVec Ideal S10000x128 .f32) (x1 : FVec Ideal S128x64 .f32) (x2 : FVec Ideal S1x64 .f32)
    (p : Fin 10000) (q : Fin 64) :
    k0_pay1 (F := Ideal) x0 x1 x2 (ix2 p q) = (∑ j : Fin 128, x0 (ix2 p j) * x1 (ix2 j q)) + x2 (ix2 (0 : Fin 1) q) :=
  Cert.ConvSkip.kernel_hidden_apply dot_S10000x128_S128x64_S10000x64_1_0_0_1_n_n rfl rfl lhs0 lhs1 rhs0 rhs1
    x0 x1 x2 bitsLt_bf16_f32 shapeCasts_S1x64_S1x64 broadcasts_S1x64_S10000x64 p q

/-- The second output's block is the first's, narrowed: the same extended reals. -/
theorem pay2_apply (x0 : FVec Ideal S10000x128 .f32) (x1 : FVec Ideal S128x64 .f32) (x2 : FVec Ideal S1x64 .f32)
    (p : Fin 10000) (q : Fin 64) :
    k0_pay2 (F := Ideal) x0 x1 x2 (ix2 p q) = (∑ j : Fin 128, x0 (ix2 p j) * x1 (ix2 j q)) + x2 (ix2 (0 : Fin 1) q) :=
  pay1_apply x0 x1 x2 p q

/-! ## The blocks as rows of the arrays -/

/-- The printed index maps over the five points: the `data` window and both output windows are at block row `t`, the
    weight and the bias windows at the one block they have. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of the `data` block at point `t` is row `10000·t + p` of the array. -/
theorem blk_data (c : Dev nD) (t : Fin cfg0.N) (p : Fin 10000) (j : Fin 128) (r : Fin 50000)
    (hr : r.val = t.val * 10000 + p.val) :
    (iblk0 V c 0 t : Vec Ideal S10000x128 .f32) (ix2 p j) = (aData V c) (ix2 r j) := by
  obtain ⟨e0, e1, -⟩ := idx_facts t
  unfold iblk0
  rw [View.read_apply]
  show (aData V c) _ = (aData V c) _
  refine congrArg (aData V c) ?_
  funext a
  apply Fin.ext
  match a with
  | ⟨0, _⟩ => show win0_0.index t (0 : Fin 2) * 10000 + 1 * p.val = r.val; rw [e0, hr]; omega
  | ⟨1, _⟩ => show win0_0.index t (1 : Fin 2) * 128 + 1 * j.val = j.val; rw [e1]; omega

/-- The weight block at any point is the weight array. -/
theorem blk_weight (c : Dev nD) (t : Fin cfg0.N) (j : Fin 128) (q : Fin 64) :
    (iblk0 V c 1 t : Vec Ideal S128x64 .f32) (ix2 j q) = (aWeight V c) (ix2 j q) := by
  obtain ⟨-, -, e0, e1, -⟩ := idx_facts t
  unfold iblk0
  rw [View.read_apply]
  show (aWeight V c) _ = (aWeight V c) _
  refine congrArg (aWeight V c) ?_
  funext a
  apply Fin.ext
  match a with
  | ⟨0, _⟩ => show win0_1.index t (0 : Fin 2) * 128 + 1 * j.val = j.val; rw [e0]; omega
  | ⟨1, _⟩ => show win0_1.index t (1 : Fin 2) * 64 + 1 * q.val = q.val; rw [e1]; omega

/-- The bias block at any point is the bias row. -/
theorem blk_bias (c : Dev nD) (t : Fin cfg0.N) (z : Fin 1) (q : Fin 64) :
    (iblk0 V c 2 t : Vec Ideal S1x64 .f32) (ix2 z q) = (aBias V c) (ix2 z q) := by
  obtain ⟨-, -, -, -, e0, e1, -⟩ := idx_facts t
  unfold iblk0
  rw [View.read_apply]
  show (aBias V c) _ = (aBias V c) _
  refine congrArg (aBias V c) ?_
  funext a
  apply Fin.ext
  match a with
  | ⟨0, _⟩ => show win0_2.index t (0 : Fin 2) * 1 + 1 * z.val = z.val; rw [e0]; omega
  | ⟨1, _⟩ => show win0_2.index t (1 : Fin 2) * 64 + 1 * q.val = q.val; rw [e1]; omega

/-! ## What each point writes back, and the arrays after the region -/

/-- The hidden features as one function of the arrays the region finds: the projection of `data` by `W_lin` plus the
    bias row. -/
def hidden (c : Dev nD) : S50000x64.Idx → EReal :=
  Cert.Sage.proj (aData V c) (aWeight V c)
    (fun q => (aBias V c) (ix2 (0 : Fin 1) q))

/-- Entry `(p, q)` of the body's result on point `t`'s blocks is the projection at row `10000·t + p`. -/
theorem body_entry (c : Dev nD) (t : Fin cfg0.N) (p : Fin 10000) (q : Fin 64) (r : Fin 50000)
    (hr : r.val = t.val * 10000 + p.val) :
    k0_pay1 (F := Ideal) (iblk0 V c 0 t) (iblk0 V c 1 t) (iblk0 V c 2 t) (ix2 p q) = hidden V c (ix2 r q) := by
  refine (pay1_apply (iblk0 V c 0 t) (iblk0 V c 1 t) (iblk0 V c 2 t) p q).trans ?_
  show _ = (∑ j : Fin 128, (aData V c) (ix2 r j) * (aWeight V c) (ix2 j q))
    + (aBias V c) (ix2 (0 : Fin 1) q)
  refine congrArg₂ (· + ·) (Finset.sum_congr rfl fun j _ => ?_) (blk_bias V c t 0 q)
  exact congrArg₂ (· * ·) (blk_data V c t p j r hr) (blk_weight V c t j q)

/-- The same at an index of the block: the body's result at `y` is the projection at the array index `y` sits at. -/
theorem body_at (c : Dev nD) (t : Fin cfg0.N) (y : S10000x64.Idx) :
    k0_pay1 (F := Ideal) (iblk0 V c 0 t) (iblk0 V c 1 t) (iblk0 V c 2 t) y
      = hidden V c (((cfg0.win 3).blk t).view.emb y) := by
  obtain ⟨p, q, rfl⟩ : ∃ (p : Fin 10000) (q : Fin 64), y = ix2 p q := ⟨y 0, y 1, eq_ix2 y⟩
  obtain ⟨-, -, -, -, -, -, e0, e1, -⟩ := idx_facts t
  have hN : cfg0.N = 5 := N_0
  have ht : t.val < 5 := hN ▸ t.isLt
  refine (body_entry V c t p q ⟨t.val * 10000 + p.val, by omega⟩ rfl).trans ?_
  refine congrArg (hidden V c) ?_
  funext a
  apply Fin.ext
  match a with
  | ⟨0, _⟩ => show t.val * 10000 + p.val = win0_3.index t (0 : Fin 2) * 10000 + 1 * p.val; rw [e0]; omega
  | ⟨1, _⟩ => show q.val = win0_3.index t (1 : Fin 2) * 64 + 1 * q.val; rw [e1]; omega

/-- The second output's window sits where the first's does. -/
theorem emb_same (t : Fin cfg0.N) (y : S10000x64.Idx) :
    (((cfg0.win 4).blk t).view.emb y : S50000x64.Idx) = ((cfg0.win 3).blk t).view.emb y := by
  obtain ⟨-, -, -, -, -, -, e0, e1, f0, f1⟩ := idx_facts t
  funext a
  apply Fin.ext
  match a with
  | ⟨0, _⟩ => show win0_4.index t (0 : Fin 2) * 10000 + 1 * (y 0).val = win0_3.index t (0 : Fin 2) * 10000 + 1 * (y 0).val; rw [e0, f0]
  | ⟨1, _⟩ => show win0_4.index t (1 : Fin 2) * 64 + 1 * (y 1).val = win0_3.index t (1 : Fin 2) * 64 + 1 * (y 1).val; rw [e1, f1]

/-- What point `t` writes back of the first output is block `t` of the projection. -/
theorem flushed3_eq (c : Dev nD) (t : Fin cfg0.N) :
    (dat0 V c).flushed 3 t = ((cfg0.win 3).blk t).view.read (Elt Ideal) (hidden V c) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x64) hz, View.ld_unit_zero (S := S1x64) hz]
  funext y
  exact body_at V c t y

/-- What point `t` writes back of the second output is block `t` of the projection too. -/
theorem flushed4_eq (c : Dev nD) (t : Fin cfg0.N) :
    (dat0 V c).flushed 4 t = ((cfg0.win 4).blk t).view.read (Elt Ideal) (hidden V c) := by
  show (cfg0.win 4).cut (grid0.coords t) ((dat0 V c).after 4 t) = _
  rw [after0_4]
  unfold out0_4
  rw [View.canon_unit_zero hz]
  simp only [View.ld_unit_zero (S := S10000x128) hz, View.ld_unit_zero (S := S128x64) hz, View.ld_unit_zero (S := S1x64) hz]
  funext y
  show k0_pay1 (F := Ideal) (iblk0 V c 0 t) (iblk0 V c 1 t) (iblk0 V c 2 t) y = hidden V c (((cfg0.win 4).blk t).view.emb y)
  rw [emb_same t y]
  exact body_at V c t y

/-- An index of the first output array is in point `t`'s block iff each coordinate is in the block's range. -/
theorem mem_blk3 (t : Fin cfg0.N) (i : S50000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v1_0).slice (win0_3.rect t)).set ↔ _
  rw [View.set_slice_whole, Rect.mem_set_unit]
  exact Iff.rfl

/-- The same for the second output array. -/
theorem mem_blk4 (t : Fin cfg0.N) (i : S50000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v1_1).slice (win0_4.rect t)).set ↔ _
  rw [View.set_slice_whole, Rect.mem_set_unit]
  exact Iff.rfl

/-- Row `r` is in the block of point `r / 10000`: the five blocks of rows cover the first output array. -/
theorem cover3 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 5 := N_0
  have ht : (i 0).val / 10000 < cfg0.N := by rw [hN]; omega
  obtain ⟨-, -, -, -, -, -, e0, e1, -⟩ := idx_facts ⟨(i 0).val / 10000, ht⟩
  refine ⟨⟨(i 0).val / 10000, ht⟩, flush0_3 _, ?_⟩
  rw [mem_blk3]
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_3.index ⟨(i 0).val / 10000, ht⟩ (1 : Fin 2) * 64 ≤ (i 1).val ∧ (i 1).val < win0_3.index ⟨(i 0).val / 10000, ht⟩ (1 : Fin 2) * 64 + 64
    rw [e1]; omega

/-- And the second. -/
theorem cover4 (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  have hN : cfg0.N = 5 := N_0
  have ht : (i 0).val / 10000 < cfg0.N := by rw [hN]; omega
  obtain ⟨-, -, -, -, -, -, -, -, e0, e1⟩ := idx_facts ⟨(i 0).val / 10000, ht⟩
  refine ⟨⟨(i 0).val / 10000, ht⟩, flush0_4 _, ?_⟩
  rw [mem_blk4]
  intro a
  match a with
  | ⟨0, _⟩ =>
    show win0_4.index ⟨(i 0).val / 10000, ht⟩ (0 : Fin 2) * 10000 ≤ (i 0).val ∧ (i 0).val < win0_4.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_4.index ⟨(i 0).val / 10000, ht⟩ (1 : Fin 2) * 64 ≤ (i 1).val ∧ (i 1).val < win0_4.index ⟨(i 0).val / 10000, ht⟩ (1 : Fin 2) * 64 + 64
    rw [e1]; omega

/-- After the region the first output array is the projection of the arrays the region found. -/
theorem final3 (c : Dev nD) : (dat0 V c).arrAt 3 cfg0.N = hidden V c :=
  (dat0 V c).arrAt_eq_of_cover 3 (hidden V c) (fun t _ => flushed3_eq V c t) cover3

/-- And so is the second. -/
theorem final4 (c : Dev nD) : (dat0 V c).arrAt 4 cfg0.N = hidden V c :=
  (dat0 V c).arrAt_eq_of_cover 4 (hidden V c) (fun t _ => flushed4_eq V c t) cover4

end Cert.KernelIdeal.Hidden

end
-- ==== Proof.Value1.lean ====
/-
  The second kernel region: the combine step `max ((16·h − nb)·(1/16) + (merge·W_tr + b_tr), 0)`.

  The region has ten grid points; point `t` takes rows `5000·t … 5000·t + 4999` of `merge`, of the hidden features and
  of the neighbour sums, the whole of `W_tr` and the bias row, and writes the same block of rows of the result.  Entry
  `(p, q)` of a block depends on row `p` of the three row blocks only, so every block is the restriction of ONE
  whole-array function of the arrays the region finds; the blocks cover the array.
-/
import proofs.«177950_j87488483819569_2_alg».proof.Proof.Gen.KernelIdeal.Frame
import proofs.«177950_j87488483819569_2_alg».proof.Proof.Spec
import Idealize.ShloMosaic.Lib.Pipeline.Value

set_option maxRecDepth 16384

noncomputable section

namespace Cert.KernelIdeal.Combine

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The arrays the region reads, as it finds them: `merge`, the hidden features, the neighbour sums, `W_tr` and the
    bias laid as a row. -/
abbrev aMerge (c : Dev nD) : S50000x128.Idx → EReal := V c main_arg1
abbrev aHidden (c : Dev nD) : S50000x64.Idx → EReal := V c main_v1_0
abbrev aNeigh (c : Dev nD) : S50000x64.Idx → EReal := V c main_v10
abbrev aWeight (c : Dev nD) : S128x64.Idx → EReal := V c main_arg5
abbrev aBias (c : Dev nD) : S1x64.Idx → EReal := V c main_v11

/-! ## The contraction record of the block product: which operand coordinate each index names -/

theorem lhs0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-! ## The body's arithmetic at an entry of a block -/

/-- Entry `(p, q)` of the result's block, from the `merge` block `x0`, the weights `w`, the bias row `b2`, the block
    `hx` of hidden features and the block `nx` of neighbour sums. -/
theorem pay_apply (x0 : FVec Ideal S5000x128 .f32) (w : FVec Ideal S128x64 .f32) (b2 : FVec Ideal S1x64 .f32)
    (hx nx : FVec Ideal S5000x64 .f32) (p : Fin 5000) (q : Fin 64) :
    k1_pay1 (F := Ideal) x0 w b2 hx nx (ix2 p q)
      = max ((Ideal.ofBits .f32 0x41800000#32 * hx (ix2 p q) - nx (ix2 p q)) * Ideal.ofBits .f32 0x3D800000#32
          + ((∑ j : Fin 128, x0 (ix2 p j) * w (ix2 j q)) + b2 (ix2 (0 : Fin 1) q)))
        (Ideal.ofBits .f32 0x00000000#32) :=
  Cert.ConvSkip.kernel_combine_apply dot_S5000x128_S128x64_S5000x64_1_0_0_1_n_n rfl rfl lhs0 lhs1 rhs0 rhs1
    x0 w b2 hx nx bitsLt_bf16_f32 shapeCasts_S1x64_S1x64 shapeCasts_S5000x64_S5000x64 broadcasts_S1x64_S5000x64 p q

/-! ## The blocks as rows of the arrays -/

/-- The printed index maps over the ten points: the three row windows and the result window are at block row `t`, the
    weight and the bias windows at the one block they have. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the `merge` block at point `t` is row `5000·t + p` of the array. -/
theorem blk_merge (c : Dev nD) (t : Fin cfg1.N) (p : Fin 5000) (j : Fin 128) (r : Fin 50000)
    (hr : r.val = t.val * 5000 + p.val) :
    (iblk1 V c 0 t : Vec Ideal S5000x128 .f32) (ix2 p j) = (aMerge V c) (ix2 r j) := by
  obtain ⟨e0, e1, -⟩ := idx_facts t
  unfold iblk1
  rw [View.read_apply]
  show (aMerge V c) _ = (aMerge V c) _
  refine congrArg (aMerge V c) ?_
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * j.val = j.val; rw [e1]; omega

/-- Row `p` of the hidden-feature block at point `t` is row `5000·t + p` of the array. -/
theorem blk_hidden (c : Dev nD) (t : Fin cfg1.N) (p : Fin 5000) (q : Fin 64) (r : Fin 50000)
    (hr : r.val = t.val * 5000 + p.val) :
    (iblk1 V c 1 t : Vec Ideal S5000x64 .f32) (ix2 p q) = (aHidden V c) (ix2 r q) := by
  obtain ⟨-, -, e0, e1, -⟩ := idx_facts t
  unfold iblk1
  rw [View.read_apply]
  show (aHidden V c) _ = (aHidden V c) _
  refine congrArg (aHidden V c) ?_
  funext a
  apply Fin.ext
  match a with
  | ⟨0, _⟩ => show win1_1.index t (0 : Fin 2) * 5000 + 1 * p.val = r.val; rw [e0, hr]; omega
  | ⟨1, _⟩ => show win1_1.index t (1 : Fin 2) * 64 + 1 * q.val = q.val; rw [e1]; omega

/-- Row `p` of the neighbour-sum block at point `t` is row `5000·t + p` of the array. -/
theorem blk_neigh (c : Dev nD) (t : Fin cfg1.N) (p : Fin 5000) (q : Fin 64) (r : Fin 50000)
    (hr : r.val = t.val * 5000 + p.val) :
    (iblk1 V c 2 t : Vec Ideal S5000x64 .f32) (ix2 p q) = (aNeigh V c) (ix2 r q) := by
  obtain ⟨-, -, -, -, e0, e1, -⟩ := idx_facts t
  unfold iblk1
  rw [View.read_apply]
  show (aNeigh V c) _ = (aNeigh V c) _
  refine congrArg (aNeigh V c) ?_
  funext a
  apply Fin.ext
  match a with
  | ⟨0, _⟩ => show win1_2.index t (0 : Fin 2) * 5000 + 1 * p.val = r.val; rw [e0, hr]; omega
  | ⟨1, _⟩ => show win1_2.index t (1 : Fin 2) * 64 + 1 * q.val = q.val; rw [e1]; omega

/-- The weight block at any point is the weight array. -/
theorem blk_weight (c : Dev nD) (t : Fin cfg1.N) (j : Fin 128) (q : Fin 64) :
    (iblk1 V c 3 t : Vec Ideal S128x64 .f32) (ix2 j q) = (aWeight V c) (ix2 j q) := by
  obtain ⟨-, -, -, -, -, -, e0, e1, -⟩ := idx_facts t
  unfold iblk1
  rw [View.read_apply]
  show (aWeight V c) _ = (aWeight V c) _
  refine congrArg (aWeight V c) ?_
  funext a
  apply Fin.ext
  match a with
  | ⟨0, _⟩ => show win1_3.index t (0 : Fin 2) * 128 + 1 * j.val = j.val; rw [e0]; omega
  | ⟨1, _⟩ => show win1_3.index t (1 : Fin 2) * 64 + 1 * q.val = q.val; rw [e1]; omega

/-- The bias block at any point is the bias row. -/
theorem blk_bias (c : Dev nD) (t : Fin cfg1.N) (z : Fin 1) (q : Fin 64) :
    (iblk1 V c 4 t : Vec Ideal S1x64 .f32) (ix2 z q) = (aBias V c) (ix2 z q) := by
  obtain ⟨-, -, -, -, -, -, -, -, e0, e1, -⟩ := idx_facts t
  unfold iblk1
  rw [View.read_apply]
  show (aBias V c) _ = (aBias V c) _
  refine congrArg (aBias V c) ?_
  funext a
  apply Fin.ext
  match a with
  | ⟨0, _⟩ => show win1_4.index t (0 : Fin 2) * 1 + 1 * z.val = z.val; rw [e0]; omega
  | ⟨1, _⟩ => show win1_4.index t (1 : Fin 2) * 64 + 1 * q.val = q.val; rw [e1]; omega

/-! ## What each point writes back, and the result array after the region -/

/-- The result as one function of the arrays the region finds: the combine step of the hidden features, the neighbour
    sums and the skip projection of `merge` by `W_tr` plus the bias row. -/
def result (c : Dev nD) : S50000x64.Idx → EReal :=
  Cert.ConvSkip.combine (aHidden V c) (aNeigh V c)
    (Cert.Sage.proj (aMerge V c) (aWeight V c)
      (fun q => (aBias V c) (ix2 (0 : Fin 1) q)))

/-- Entry `(p, q)` of the body's result on point `t`'s blocks is `result` at row `5000·t + p`. -/
theorem body_entry (c : Dev nD) (t : Fin cfg1.N) (p : Fin 5000) (q : Fin 64) (r : Fin 50000)
    (hr : r.val = t.val * 5000 + p.val) :
    k1_pay1 (F := Ideal) (iblk1 V c 0 t) (iblk1 V c 3 t) (iblk1 V c 4 t) (iblk1 V c 1 t) (iblk1 V c 2 t) (ix2 p q)
      = result V c (ix2 r q) := by
  refine (pay_apply (iblk1 V c 0 t) (iblk1 V c 3 t) (iblk1 V c 4 t) (iblk1 V c 1 t) (iblk1 V c 2 t) p q).trans ?_
  show _ = max ((Ideal.ofBits .f32 0x41800000#32 * (aHidden V c) (ix2 r q)
        - (aNeigh V c) (ix2 r q)) * Ideal.ofBits .f32 0x3D800000#32
      + ((∑ j : Fin 128, (aMerge V c) (ix2 r j) * (aWeight V c) (ix2 j q))
        + (aBias V c) (ix2 (0 : Fin 1) q)))
    (Ideal.ofBits .f32 0x00000000#32)
  rw [blk_hidden V c t p q r hr, blk_neigh V c t p q r hr, blk_bias V c t 0 q]
  refine congrArg (fun s => max (_ + (s + _)) _) (Finset.sum_congr rfl fun j _ => ?_)
  exact congrArg₂ (· * ·) (blk_merge V c t p j r hr) (blk_weight V c t j q)

/-- The same at an index of the block: the body's result at `y` is `result` at the array index `y` sits at. -/
theorem body_at (c : Dev nD) (t : Fin cfg1.N) (y : S5000x64.Idx) :
    k1_pay1 (F := Ideal) (iblk1 V c 0 t) (iblk1 V c 3 t) (iblk1 V c 4 t) (iblk1 V c 1 t) (iblk1 V c 2 t) y
      = result V c (((cfg1.win 5).blk t).view.emb y) := by
  obtain ⟨p, q, rfl⟩ : ∃ (p : Fin 5000) (q : Fin 64), y = ix2 p q := ⟨y 0, y 1, eq_ix2 y⟩
  obtain ⟨-, -, -, -, -, -, -, -, -, -, e0, e1⟩ := idx_facts t
  have hN : cfg1.N = 10 := N_1
  have ht : t.val < 10 := hN ▸ t.isLt
  refine (body_entry V c t p q ⟨t.val * 5000 + p.val, by omega⟩ rfl).trans ?_
  refine congrArg (result V c) ?_
  funext a
  apply Fin.ext
  match a with
  | ⟨0, _⟩ => show t.val * 5000 + p.val = win1_5.index t (0 : Fin 2) * 5000 + 1 * p.val; rw [e0]; omega
  | ⟨1, _⟩ => show q.val = win1_5.index t (1 : Fin 2) * 64 + 1 * q.val; rw [e1]; omega

/-- What point `t` writes back is block `t` of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S1x64) hz,
    View.ld_unit_zero (S := S5000x64) hz]
  funext y
  exact body_at V c t y

/-- An index of the result array is in point `t`'s block iff each coordinate is in the block's range. -/
theorem mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v12).slice (win1_5.rect t)).set ↔ _
  rw [View.set_slice_whole, Rect.mem_set_unit]
  exact Iff.rfl

/-- Row `r` is in the block of point `r / 5000`: the ten blocks of rows cover the result array. -/
theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  have ht : (i 0).val / 5000 < cfg1.N := by rw [hN]; omega
  obtain ⟨-, -, -, -, -, -, -, -, -, -, e0, e1⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 64 ≤ (i 1).val ∧ (i 1).val < win1_5.index ⟨(i 0).val / 5000, ht⟩ (1 : Fin 2) * 64 + 64
    rw [e1]; omega

/-- After the region the result array is `result` of the arrays the region found. -/
theorem final (c : Dev nD) : (dat1 V c).arrAt 5 cfg1.N = result V c :=
  (dat1 V c).arrAt_eq_of_cover 5 (result V c) (fun t _ => flushed_eq V c t) cover

end Cert.KernelIdeal.Combine

end
-- ==== Proof.LibRowBroadcast.lean ====
/-
  A row vector `[1, b]` broadcast down the rows of an `[a, b]` array, and a flat `[b]` vector laid as a row and
  broadcast the same way, read at an entry: entry `(p, q)` of the result is entry `q` of the row.
-/
import Idealize.ShloMosaic.Lib.ValueIdx
import Idealize.ShloMosaic.Lib.Pipeline.Value

noncomputable section

namespace Idealize.ShloMosaic.RowBroadcast

open Idealize.ShloMosaic Idealize.ShloMosaic.ValueIdx

variable {a b : ℕ} {α : Type}

/-- The kernel-side broadcast of a `[1, b]` row to `[a, b]`: entry `(p, q)` is the row's entry `(0, q)`. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · rfl

/-- The host-side broadcast of a `[1, b]` row to `[a, b]` along both axes: entry `(p, q)` is the row's `(0, q)`. -/
theorem broadcastInDim_row_apply (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (p : Fin a) (q : Fin b) :
    broadcastInDim ⟨2, ![a, b]⟩ dims h x (ix2 p q) = x (ix2 (0 : Fin 1) q) := by
  refine broadcastInDim_apply dims h x (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · show q.val = ((ix2 p q : (⟨2, ![a, b]⟩ : Shape).Idx) (dims 1)).val
        rw [hd1]

/-- The host-side lay-out of a flat `[b]` vector as a `[1, b]` row (its one axis sent to axis 1): entry `(0, q)` is
    the vector's entry `q`. -/
theorem broadcastInDim_flat_apply (dims : Fin 1 → Fin 2) (hd : dims 0 = 1)
    (h : (⟨1, ![b]⟩ : Shape).BroadcastsInDim ⟨2, ![1, b]⟩ dims)
    (x : (⟨1, ![b]⟩ : Shape).Idx → α) (z : Fin 1) (q : Fin b) :
    broadcastInDim ⟨2, ![1, b]⟩ dims h x (ix2 z q) = x (ix1 q) := by
  refine broadcastInDim_apply dims h x (ix2 z q) (ix1 q) fun ax => ?_
  match ax with
  | ⟨0, _⟩ =>
    by_cases hb : b = 1
    · subst hb
      have : q.val = 0 := by omega
      simp [this]
    · split
      · rename_i h1; exact absurd h1 hb
      · show q.val = ((ix2 z q : (⟨2, ![1, b]⟩ : Shape).Idx) (dims 0)).val
        rw [hd]

/-- A `[b]` vector reshaped to a `[1, b]` row: entry `(0, q)` is the vector's entry `q`. -/
theorem shapeCast_flat_apply (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h (ix2 z q) (ix1 q) ?_
  have hz : z.val = 0 := by omega
  rw [Shape.rowMajor_val_one, Shape.rowMajor_val_two]
  show q.val = z.val * _ + q.val
  rw [hz, Nat.zero_mul, Nat.zero_add]

end Idealize.ShloMosaic.RowBroadcast

end
-- ==== Proof.KernelHost.lean ====
/-
  The buffer contents between the program's segments, and the kernel's result as one function of the arguments.

  Before the first region one host line lays `b_lin` as a row.  Between the regions thirteen host lines normalise the
  neighbour indices (a negative index counts from the end), gather the rows of the narrowed hidden features they
  name, widen them and add the sixteen gathered rows of each node; a last line lays `b_tr` as a row.  Those lines are
  named as ONE function `neighK` of the table and the index array and never opened: the reference applies the same
  lines to the same table.  Reading the second region's entry contents through them, and the first region's through
  its one line, gives the result array as the layer function of the seven arguments.
-/
import proofs.«177950_j87488483819569_2_alg».proof.Proof.Value0
import proofs.«177950_j87488483819569_2_alg».proof.Proof.Value1
import proofs.«177950_j87488483819569_2_alg».proof.Proof.LibRowBroadcast
import Idealize.ShloMosaic.Lib.StableHlo.Run

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg)

/-- The seven arguments as launched, at their literal types. -/
abbrev argData (c : Dev nD) : S50000x128.Idx → EReal := m ((c : Thread nD τ).loc main_arg0)
abbrev argMerge (c : Dev nD) : S50000x128.Idx → EReal := m ((c : Thread nD τ).loc main_arg1)
abbrev argIdx (c : Dev nD) : IVec S50000x16 32 := m ((c : Thread nD τ).loc main_arg2)
abbrev argWl (c : Dev nD) : S128x64.Idx → EReal := m ((c : Thread nD τ).loc main_arg3)
abbrev argBl (c : Dev nD) : S64.Idx → EReal := m ((c : Thread nD τ).loc main_arg4)
abbrev argWt (c : Dev nD) : S128x64.Idx → EReal := m ((c : Thread nD τ).loc main_arg5)
abbrev argBt (c : Dev nD) : S64.Idx → EReal := m ((c : Thread nD τ).loc main_arg6)

/-- The neighbour sums as the host lines between the regions compute them from a table of rows and the index array:
    normalise the indices, gather, widen, add over the sixteen neighbours. -/
def neighK (tbl : FVec Ideal S50000x64 .bf16) (idx : IVec S50000x16 32) : FVec Ideal S50000x64 .f32 :=
  Host.reduceAdd (F := Ideal)
    (extf .f32 (Host.gather gather_S50000x64_S50000x16x1_S50000x16x64_2_0_n_n_0_2_164 tbl
      (broadcastInDim S50000x16x1 ![0, 1] bcast_S50000x16_S50000x16x1_0_1
        (select (cmpi .slt idx (broadcastInDim S50000x16 ![] bcast_S_S50000x16 (constantI S_ 32 0#32)))
          (addi idx (broadcastInDim S50000x16 ![] bcast_S_S50000x16 (constantI S_ 32 50000#32))) idx))) bitsLt_bf16_f32)
    (constant (F := Ideal) S_ .f32 0x00000000#32) reducesTo_S50000x16x64_S50000x64_d1 h_S_

/-! ## The first region's entry -/

theorem entry0_data (c : Dev nD) : Hidden.aData (V1 m ρ) c = argData m c := by
  show StableHlo.after hostOps0 (W0 m ρ c) (Proc.devRef .tc main_arg0) = _
  dsimp only [hostOps0]
  after_results <;> rfl

theorem entry0_weight (c : Dev nD) : Hidden.aWeight (V1 m ρ) c = argWl m c := by
  show StableHlo.after hostOps0 (W0 m ρ c) (Proc.devRef .tc main_arg3) = _
  dsimp only [hostOps0]
  after_results <;> rfl

theorem entry0_bias_row (c : Dev nD) :
    Hidden.aBias (V1 m ρ) c = shapeCast S1x64 (argBl m c) shapeCasts_S64_S1x64 := by
  show StableHlo.after hostOps0 (W0 m ρ c) (Proc.devRef .tc main_v0) = _
  dsimp only [hostOps0]
  after_results <;> rfl

/-- The bias row the first region reads is `b_lin`, entry by entry. -/
theorem entry0_bias (c : Dev nD) :
    (fun q : Fin 64 => Hidden.aBias (V1 m ρ) c (ix2 (0 : Fin 1) q)) = fun q => argBl m c (ix1 q) := by
  funext q
  rw [entry0_bias_row]
  exact RowBroadcast.shapeCast_flat_apply (argBl m c) shapeCasts_S64_S1x64 0 q

/-- The hidden features as a function of the arguments. -/
abbrev hiddenOf (c : Dev nD) : FVec Ideal S50000x64 .f32 :=
  Cert.Sage.proj (argData m c) (argWl m c) (fun q => argBl m c (ix1 q))

/-- After the first region both of its output arrays are the hidden features of the arguments. -/
theorem hidden_f32 (c : Dev nD) : (dat0 (V1 m ρ) c).arrAt 3 cfg0.N = hiddenOf m c := by
  rw [Hidden.final3 (V1 m ρ) c]
  show Cert.Sage.proj (Hidden.aData (V1 m ρ) c) (Hidden.aWeight (V1 m ρ) c) (fun q : Fin 64 => Hidden.aBias (V1 m ρ) c (ix2 (0 : Fin 1) q)) = _
  rw [entry0_data, entry0_weight, entry0_bias]

theorem hidden_bf16 (c : Dev nD) : (dat0 (V1 m ρ) c).arrAt 4 cfg0.N = hiddenOf m c := by
  rw [Hidden.final4 (V1 m ρ) c]
  show Cert.Sage.proj (Hidden.aData (V1 m ρ) c) (Hidden.aWeight (V1 m ρ) c) (fun q : Fin 64 => Hidden.aBias (V1 m ρ) c (ix2 (0 : Fin 1) q)) = _
  rw [entry0_data, entry0_weight, entry0_bias]

/-! ## The contents the first region leaves, where the host lines between the regions read them -/

theorem mid_idx (c : Dev nD) : (W2 m ρ c (Proc.devRef .tc main_arg2) : IVec S50000x16 32) = argIdx m c :=
  (W2_of_ne m ρ c main_arg2 (by decide)).trans (by
    show StableHlo.after hostOps0 (W0 m ρ c) (Proc.devRef .tc main_arg2) = _
    dsimp only [hostOps0]
    after_results <;> rfl)

theorem mid_merge (c : Dev nD) : (W2 m ρ c (Proc.devRef .tc main_arg1) : S50000x128.Idx → EReal) = argMerge m c :=
  (W2_of_ne m ρ c main_arg1 (by decide)).trans (by
    show StableHlo.after hostOps0 (W0 m ρ c) (Proc.devRef .tc main_arg1) = _
    dsimp only [hostOps0]
    after_results <;> rfl)

theorem mid_wt (c : Dev nD) : (W2 m ρ c (Proc.devRef .tc main_arg5) : S128x64.Idx → EReal) = argWt m c :=
  (W2_of_ne m ρ c main_arg5 (by decide)).trans (by
    show StableHlo.after hostOps0 (W0 m ρ c) (Proc.devRef .tc main_arg5) = _
    dsimp only [hostOps0]
    after_results <;> rfl)

theorem mid_bt (c : Dev nD) : (W2 m ρ c (Proc.devRef .tc main_arg6) : S64.Idx → EReal) = argBt m c :=
  (W2_of_ne m ρ c main_arg6 (by decide)).trans (by
    show StableHlo.after hostOps0 (W0 m ρ c) (Proc.devRef .tc main_arg6) = _
    dsimp only [hostOps0]
    after_results <;> rfl)

theorem mid_hidden_f32 (c : Dev nD) : (W2 m ρ c (Proc.devRef .tc main_v1_0) : S50000x64.Idx → EReal) = hiddenOf m c :=
  (W2_arr m ρ c 3).trans (hidden_f32 m ρ c)

theorem mid_hidden_bf16 (c : Dev nD) : (W2 m ρ c (Proc.devRef .tc main_v1_1) : S50000x64.Idx → EReal) = hiddenOf m c :=
  (W2_arr m ρ c 4).trans (hidden_bf16 m ρ c)

/-! ## The second region's entry -/

theorem entry1_merge (c : Dev nD) : Combine.aMerge (V3 m ρ) c = argMerge m c := by
  refine Eq.trans ?_ (mid_merge m ρ c)
  show StableHlo.after hostOps1 (W2 m ρ c) (Proc.devRef .tc main_arg1) = _
  dsimp only [hostOps1]
  after_results <;> rfl

theorem entry1_weight (c : Dev nD) : Combine.aWeight (V3 m ρ) c = argWt m c := by
  refine Eq.trans ?_ (mid_wt m ρ c)
  show StableHlo.after hostOps1 (W2 m ρ c) (Proc.devRef .tc main_arg5) = _
  dsimp only [hostOps1]
  after_results <;> rfl

theorem entry1_hidden (c : Dev nD) : Combine.aHidden (V3 m ρ) c = hiddenOf m c := by
  refine Eq.trans ?_ (mid_hidden_f32 m ρ c)
  show StableHlo.after hostOps1 (W2 m ρ c) (Proc.devRef .tc main_v1_0) = _
  dsimp only [hostOps1]
  after_results <;> rfl

theorem entry1_bias_row (c : Dev nD) :
    Combine.aBias (V3 m ρ) c = shapeCast S1x64 (W2 m ρ c (Proc.devRef .tc main_arg6) : S64.Idx → EReal) shapeCasts_S64_S1x64 := by
  show StableHlo.after hostOps1 (W2 m ρ c) (Proc.devRef .tc main_v11) = _
  dsimp only [hostOps1]
  after_results <;> rfl

/-- The bias row the second region reads is `b_tr`, entry by entry. -/
theorem entry1_bias (c : Dev nD) :
    (fun q : Fin 64 => Combine.aBias (V3 m ρ) c (ix2 (0 : Fin 1) q)) = fun q => argBt m c (ix1 q) := by
  funext q
  rw [entry1_bias_row, mid_bt]
  exact RowBroadcast.shapeCast_flat_apply (argBt m c) shapeCasts_S64_S1x64 0 q

/-- The neighbour sums the second region reads are the host lines' function of what the first region left. -/
theorem entry1_neigh_raw (c : Dev nD) :
    Combine.aNeigh (V3 m ρ) c
      = neighK (W2 m ρ c (Proc.devRef .tc main_v1_1) : S50000x64.Idx → EReal) (W2 m ρ c (Proc.devRef .tc main_arg2) : IVec S50000x16 32) := by
  show StableHlo.after hostOps1 (W2 m ρ c) (Proc.devRef .tc main_v10) = _
  dsimp only [hostOps1]
  after_results <;> rfl

theorem entry1_neigh (c : Dev nD) : Combine.aNeigh (V3 m ρ) c = neighK (hiddenOf m c) (argIdx m c) := by
  rw [entry1_neigh_raw, mid_hidden_bf16, mid_idx]

/-! ## The result -/

/-- The result array after the second region is the layer function of the seven arguments. -/
theorem kernel_value (c : Dev nD) :
    (dat1 (V3 m ρ) c).arrAt 5 cfg1.N
      = Cert.ConvSkip.layer (fun tbl => neighK tbl (argIdx m c)) (argData m c) (argMerge m c) (argWl m c)
          (fun q => argBl m c (ix1 q)) (argWt m c) (fun q => argBt m c (ix1 q)) := by
  rw [Combine.final (V3 m ρ) c]
  show Cert.ConvSkip.combine (Combine.aHidden (V3 m ρ) c) (Combine.aNeigh (V3 m ρ) c)
      (Cert.Sage.proj (Combine.aMerge (V3 m ρ) c) (Combine.aWeight (V3 m ρ) c)
        (fun q : Fin 64 => Combine.aBias (V3 m ρ) c (ix2 (0 : Fin 1) q))) = _
  rw [entry1_hidden, entry1_neigh, entry1_merge, entry1_weight, entry1_bias]
  rfl

end Cert.KernelIdeal.Boundary

end
-- ==== Proof.RefValue.lean ====
/-
  The reference's result as the layer function of the arguments.

  The reference computes the hidden features and the skip branch by the host's contraction plus the bias vector laid as a
  row and repeated down the rows — each the projection —, gathers and adds the neighbours' rows of the hidden features by
  the host lines named `neighR` (never opened), and combines with a quotient by sixteen.
-/
import proofs.«177950_j87488483819569_2_alg».proof.Proof.Gen.ReferenceIdeal.Read
import proofs.«177950_j87488483819569_2_alg».proof.Proof.Spec
import proofs.«177950_j87488483819569_2_alg».proof.Proof.LibRowBroadcast

noncomputable section

namespace Cert.ReferenceIdeal.RefValue

open Cert.ReferenceIdeal Cert.ReferenceIdeal.Gen
open Idealize.ShloMosaic Idealize.ShloMosaic.TcCoe Idealize.SL.Sem Idealize.ShloMosaic.ValueIdx

/-- The neighbour sums as the reference's host lines compute them from a table of rows and the index array: normalise
    the indices, gather, add over the sixteen neighbours. -/
def neighR (tbl : FVec Ideal S50000x64 .f32) (idx : IVec S50000x16 32) : FVec Ideal S50000x64 .f32 :=
  Host.reduceAdd (F := Ideal)
    (Host.gather gather_S50000x64_S50000x16x1_S50000x16x64_2_0_n_n_0_2_164 tbl (Read.val_main_v9 (F := Ideal) idx))
    (Read.val_main_cst (F := Ideal)) reducesTo_S50000x16x64_S50000x64_d1 h_S_

/-- A bias vector laid as a row and repeated down the rows reads, at `(p, q)`, the vector's entry `q`. -/
theorem bias_rows (x : FVec Ideal S64 .f32) (p : Fin 50000) (q : Fin 64) :
    broadcastInDim S50000x64 ![0, 1] bcast_S1x64_S50000x64_0_1 (broadcastInDim S1x64 ![1] bcast_S64_S1x64_1 x) (ix2 p q)
      = x (ix1 q) :=
  (RowBroadcast.broadcastInDim_row_apply ![0, 1] rfl rfl bcast_S1x64_S50000x64_0_1 _ p q).trans
    (RowBroadcast.broadcastInDim_flat_apply ![1] rfl bcast_S64_S1x64_1 x 0 q)

/-- The reference's hidden features are the projection of `data` by `W_lin` plus `b_lin`. -/
theorem hidden_eq (x0 : FVec Ideal S50000x128 .f32) (x3 : FVec Ideal S128x64 .f32) (x4 : FVec Ideal S64 .f32) :
    Read.val_main_v3 (F := Ideal) x0 x3 x4 = Cert.Sage.proj x0 x3 (fun q => x4 (ix1 q)) := by
  unfold Read.val_main_v3 Read.val_main_v0 Read.val_main_v2 Read.val_main_v1
  exact Cert.Sage.host_proj_eq dot_S50000x128_S128x64_S50000x64_1_0_0_1_n_n rfl rfl
    Read.lhs_main_v0_0 Read.lhs_main_v0_1 Read.rhs_main_v0_0 Read.rhs_main_v0_1 x0 x3 (fun q => x4 (ix1 q)) _
    (fun p q => bias_rows x4 p q)

/-- The reference's skip branch is the projection of `merge` by `W_tr` plus `b_tr`. -/
theorem skip_eq (x1 : FVec Ideal S50000x128 .f32) (x5 : FVec Ideal S128x64 .f32) (x6 : FVec Ideal S64 .f32) :
    Read.val_main_v20 (F := Ideal) x1 x5 x6 = Cert.Sage.proj x1 x5 (fun q => x6 (ix1 q)) := by
  unfold Read.val_main_v20 Read.val_main_v17 Read.val_main_v19 Read.val_main_v18
  exact Cert.Sage.host_proj_eq dot_S50000x128_S128x64_S50000x64_1_0_0_1_n_n rfl rfl
    Read.lhs_main_v17_0 Read.lhs_main_v17_1 Read.rhs_main_v17_0 Read.rhs_main_v17_1 x1 x5 (fun q => x6 (ix1 q)) _
    (fun p q => bias_rows x6 p q)

/-- The reference's result is the layer function of its arguments. -/
theorem result_eq (x0 x1 : FVec Ideal S50000x128 .f32) (x2 : IVec S50000x16 32) (x3 : FVec Ideal S128x64 .f32)
    (x4 : FVec Ideal S64 .f32) (x5 : FVec Ideal S128x64 .f32) (x6 : FVec Ideal S64 .f32) :
    Read.val_main_v22 (F := Ideal) x0 x1 x2 x3 x4 x5 x6
      = Cert.ConvSkip.layer (fun tbl => neighR tbl x2) x0 x1 x3 (fun q => x4 (ix1 q)) x5 (fun q => x6 (ix1 q)) := by
  unfold Read.val_main_v22 Read.val_main_v21 Read.val_main_v16 Read.val_main_v14 Read.val_main_v13 Read.val_main_v11
    Read.val_main_v10
  rw [hidden_eq, skip_eq]
  show _ = Cert.ConvSkip.combine (Cert.Sage.proj x0 x3 (fun q => x4 (ix1 q)))
    (neighR (Cert.Sage.proj x0 x3 (fun q => x4 (ix1 q))) x2) (Cert.Sage.proj x1 x5 (fun q => x6 (ix1 q)))
  exact Cert.ConvSkip.host_combine_eq _ _ _ _ _ _
    (fun i => (Read.val_main_v12_apply (F := Ideal) i).trans rfl)
    (fun i => (Read.val_main_v15_apply (F := Ideal) i).trans rfl)
    (fun i => (Read.val_main_call0_v0_apply (F := Ideal) i).trans rfl)

end Cert.ReferenceIdeal.RefValue

end
-- ==== Proof.lean ====
/-
  The skip-merge graph layer: the kernel against its reference, on the extended reals.

  Both programs compute `max ((16·h − nb)/16 + (merge·W_tr + b_tr), 0)` with `h = data·W_lin + b_lin` and `nb` the sum of
  the sixteen rows of `h` each node's neighbour indices name.  The kernel computes `h` in one region (block by block, with a
  narrowed copy for the gather), the neighbour sums by host lines, and the rest in a second region, multiplying by one
  sixteenth where the reference divides by sixteen: on the extended reals division by a non-zero real is multiplication
  by its reciprocal, so the two agree on every input, finite or not.  Narrowing and widening change nothing there, a
  blocked matrix product and a whole one are the same sums, and the gather lines are the same function on both sides,
  applied to the same table.  The ideal pass rewrote nothing, so `preserves` holds trivially.
-/
import proofs.«177950_j87488483819569_2_alg».proof.Defs
import proofs.«177950_j87488483819569_2_alg».proof.Proof.Gen.Kernel
import proofs.«177950_j87488483819569_2_alg».proof.Proof.Gen.Kernel.Skeleton
import proofs.«177950_j87488483819569_2_alg».proof.Proof.Gen.Kernel.Launch
import proofs.«177950_j87488483819569_2_alg».proof.Proof.Gen.Kernel.Points
import proofs.«177950_j87488483819569_2_alg».proof.Proof.Gen.Kernel.Frame
import proofs.«177950_j87488483819569_2_alg».proof.Proof.Gen.KernelIdeal
import proofs.«177950_j87488483819569_2_alg».proof.Proof.Gen.KernelIdeal.Skeleton
import proofs.«177950_j87488483819569_2_alg».proof.Proof.Gen.KernelIdeal.Launch
import proofs.«177950_j87488483819569_2_alg».proof.Proof.Gen.KernelIdeal.Points
import proofs.«177950_j87488483819569_2_alg».proof.Proof.Gen.KernelIdeal.Frame
import proofs.«177950_j87488483819569_2_alg».proof.Proof.Gen.ReferenceIdeal
import proofs.«177950_j87488483819569_2_alg».proof.Proof.Gen.ReferenceIdeal.Run
import proofs.«177950_j87488483819569_2_alg».proof.Proof.Gen.ReferenceIdeal.Read
import proofs.«177950_j87488483819569_2_alg».proof.Proof.Gen.Pre_finite_inputs
import proofs.«177950_j87488483819569_2_alg».proof.Proof.KernelRun
import proofs.«177950_j87488483819569_2_alg».proof.Proof.KernelHost
import proofs.«177950_j87488483819569_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The gather-and-add host lines of the two programs are one function of the table and the index array (the kernel's
    widens the gathered rows, which is the identity on extended reals). -/
theorem neigh_same (tbl : (⟨2, ![50000, 64]⟩ : Shape).Idx → EReal) (idx : IVec ⟨2, ![50000, 16]⟩ 32) :
    Cert.KernelIdeal.Boundary.neighK tbl idx = Cert.ReferenceIdeal.RefValue.neighR tbl idx := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the layer function of the (agreeing) arguments. -/
theorem algebraic : Cert.algebraic_KernelIdeal_ReferenceIdeal := by
  intro m ρ m' ρ' _ hagree
  refine ⟨fun c => Cert.ConvSkip.layer
      (fun tbl => Cert.KernelIdeal.Boundary.neighK tbl (Cert.KernelIdeal.Boundary.argIdx m c))
      (Cert.KernelIdeal.Boundary.argData m c) (Cert.KernelIdeal.Boundary.argMerge m c)
      (Cert.KernelIdeal.Boundary.argWl m c) (fun q => Cert.KernelIdeal.Boundary.argBl m c (ix1 q))
      (Cert.KernelIdeal.Boundary.argWt m c) (fun q => Cert.KernelIdeal.Boundary.argBt m c (ix1 q)), ?_, ?_⟩
  · exact (θ_run Cert.KernelIdeal.defs _ _).mono
      (fun r h c => ⟨(h c).1.trans (Cert.KernelIdeal.Boundary.kernel_value m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6⟩ := hagree c
    rw [Cert.ReferenceIdeal.Read.val_main_v22_eq, Cert.ReferenceIdeal.RefValue.result_eq, a0, a1, a2, a3, a4, a5, a6]
    show Cert.ConvSkip.layer (fun tbl => Cert.ReferenceIdeal.RefValue.neighR tbl (Cert.KernelIdeal.Boundary.argIdx m c)) _ _ _ _ _ _ = _
    simp only [← neigh_same]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
